-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S256x512 : Shape := ⟨2, ![256, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S65536x512 .f32) (main_arg1 : FVec F S256x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S65536x512 : Shape := ⟨2, ![65536, 512]⟩
abbrev S256x512 : Shape := ⟨2, ![256, 512]⟩
abbrev S65536x256 : Shape := ⟨2, ![65536, 256]⟩
abbrev S2048x512 : Shape := ⟨2, ![2048, 512]⟩
abbrev S2048x256 : Shape := ⟨2, ![2048, 256]⟩
abbrev S2048 : Shape := ⟨1, ![2048]⟩
abbrev S2048x1 : Shape := ⟨2, ![2048, 1]⟩
abbrev S256 : Shape := ⟨1, ![256]⟩
abbrev S512x256 : Shape := ⟨2, ![512, 256]⟩
abbrev S1x256 : Shape := ⟨2, ![1, 256]⟩

abbrev nBuf : Space → Nat
  | .hbm => 3
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S65536x256, .f32⟩
  | .local _ .vmem, ⟨0, _⟩ => ⟨S2048x512, .f32⟩
  | .local _ .vmem, ⟨1, _⟩ => ⟨S2048x512, .f32⟩
  | .local _ .vmem, ⟨2, _⟩ => ⟨S256x512, .f32⟩
  | .local _ .vmem, ⟨3, _⟩ => ⟨S2048x256, .f32⟩
  | .local _ .vmem, ⟨4, _⟩ => ⟨S2048x256, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  inb_S256x512_S256x512_0_0 : ∀ a, (![0, 0] : Fin 2 → Nat) a + S256x512.size a ≤ S256x512.size a
  h_S256x512 : 0 < S256x512.numel
  reduces_S2048x512_S2048 : S2048x512.Reduces [1] S2048
  shapeCasts_S2048_S2048x1 : S2048.ShapeCasts S2048x1
  reduces_S256x512_S256 : S256x512.Reduces [1] S256
  bitsLt_bf16_f32 : FTy.bits .bf16 < FTy.bits .f32
  transposes_S256x512_p1_0_S512x256 : S256x512.Transposes [1, 0] S512x256
  shapeCasts_S256_S1x256 : S256.ShapeCasts S1x256
  broadcasts_S2048x1_S2048x256 : S2048x1.Broadcasts S2048x256
  broadcasts_S1x256_S2048x256 : S1x256.Broadcasts S2048x256
  reduces_S2048x256_S2048 : S2048x256.Reduces [1] S2048
  inb_S2048x256_S2048x256_0_0 : ∀ a, (![0, 0] : Fin 2 → Nat) a + S2048x256.size a ≤ S2048x256.size a
  h_S2048x256 : 0 < S2048x256.numel
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S256x512 : Shape := ⟨2, ![256, 512]⟩
abbrev S_ : Shape := ⟨0, ![]⟩
abbrev S65536 : Shape := ⟨1, ![65536]⟩
abbrev S65536x1 : Shape := ⟨2, ![65536, 1]⟩
abbrev S256 : Shape := ⟨1, ![256]⟩
abbrev S65536x256 : Shape := ⟨2, ![65536, 256]⟩
abbrev S1x256 : Shape := ⟨2, ![1, 256]⟩

abbrev nBuf : Space → Nat
  | .hbm => 38
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S65536x512, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S256x512, .f32⟩
  | .hbm, ⟨7, _⟩ => ⟨S_, .f32⟩
  | .hbm, ⟨8, _⟩ => ⟨S256, .f32⟩
  | .hbm, ⟨9, _⟩ => ⟨S65536x256, .f32⟩
  | .hbm, ⟨10, _⟩ => ⟨S1x256, .f32⟩
  | .hbm, ⟨11, _⟩ => ⟨S65536x256, .f32⟩
  | .hbm, ⟨12, _⟩ => ⟨S65536x256, .f32⟩
  | .hbm, ⟨13, _⟩ => ⟨S65536x256, .f32⟩
  | .hbm, ⟨14, _⟩ => ⟨S_, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S_, .f32⟩
  | .hbm, ⟨19, _⟩ => ⟨S65536x256, .f32⟩
  | .hbm, ⟨20, _⟩ => ⟨S65536x256, .f32⟩
  | .hbm, ⟨21, _⟩ => ⟨S_, .f32⟩
  | .hbm, ⟨22, _⟩ => ⟨S65536x256, .f32⟩
  | .hbm, ⟨23, _⟩ => ⟨S65536x256, .f32⟩
  | .hbm, ⟨24, _⟩ => ⟨S_, .f32⟩
  | .hbm, ⟨25, _⟩ => ⟨S65536x256, .f32⟩
  | .hbm, ⟨26, _⟩ => ⟨S65536x256, .f32⟩
  | .hbm, ⟨27, _⟩ => ⟨S_, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536x256, .f32⟩
  | .hbm, ⟨32, _⟩ => ⟨S65536x256, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S65536x256, .f32⟩
  | .hbm, ⟨37, _⟩ => ⟨S65536x256, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  reducesTo_S256x512_S256_d1 : S256x512.ReducesTo [1] S256
  bcast_S256_S1x256_1 : S256.BroadcastsInDim S1x256 (![1] : Fin 1 → Fin S1x256.rank)
  bcast_S65536x1_S65536x256_0_1 : S65536x1.BroadcastsInDim S65536x256 (![0, 1] : Fin 2 → Fin S65536x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  reducesTo_S65536x256_S65536_d1 : S65536x256.ReducesTo [1] S65536
  dot_S65536x512_S256x512_S65536x256_1_1_0_0_n_n_wf : DotDims.WF S65536x512 S256x512 S65536x256 [1] [1] [0] [0] [] []

variable [Facts₀]

def dot_S65536x512_S256x512_S65536x256_1_1_0_0_n_n : DotDims S65536x512 S256x512 S65536x256 where
  lhsContracting := [1]
  rhsContracting := [1]
  lhsNonContracting := [0]
  rhsNonContracting := [0]
  lhsBatch := []
  rhsBatch := []
  wf := dot_S65536x512_S256x512_S65536x256_1_1_0_0_n_n_wf

class Facts : Prop extends Facts₀ where

variable [Facts]
-- ==== Proof.SoftAssign.lean ====
/-
  Soft assignment of a point to 256 centroids, over the extended reals.

  For one row z ∈ ℝ̄^512 and a table C of 256 centroids c_j ∈ ℝ̄^512 the squared distance is expanded as
  |z|² + |c_j|² − 2⟨z, c_j⟩, clamped below at 0; the Student-t weight with one degree of freedom is
  w_j = 1 / (1 + d_j / 1), and the assignment is the weight normalised over the centroids, w_j / Σ_j' w_j'.
  The constants 0, 1 and 2 are kept as the float words that spell them; the only facts about them used anywhere
  are that the word of 1.0 denotes 1 (raising to that power is the identity, at the infinities too) and that the
  word of 0.0 denotes 0 (a sum started from it is the sum).
-/
import Idealize.ShloMosaic.PureOps.Ideal
import Idealize.ShloMosaic.PureOps.Ideal.Laws
import Idealize.ShloMosaic.Lib.ValueIdx

noncomputable section

namespace Cert.SoftAssign

open Idealize.ShloMosaic
open Idealize.ShloMosaic.ValueIdx (ix1 ix2)

/-- The float word of `1.0` denotes the extended real `1`. -/
theorem ofBits_one : Ideal.ofBits .f32 0x3F800000#32 = 1 := by
  simp [Ideal.ofBits, Ideal.ieee, -EReal.coe_mul]; norm_num

/-- `x ^ 1 = x` on every extended real: `⊥ ^ y = ⊥`, `⊤ ^ y = ⊤` for `y > 0`, and the real power on the reals. -/
theorem pow_one (x : EReal) : Ideal.pow x 1 = x := by
  induction x using EReal.rec with
  | bot => rfl
  | top => rw [Ideal.pow_top, if_pos zero_lt_one]
  | coe r =>
    rw [← EReal.coe_one, Ideal.pow_coe_coe]
    exact congrArg _ (Real.rpow_one r)

/-- Raising to the power spelt by the word of `1.0` is the identity. -/
theorem pow_ofBits_one (x : EReal) : Ideal.pow x (Ideal.ofBits .f32 0x3F800000#32) = x := by
  rw [ofBits_one, pow_one]

/-- The Student-t weight of centroid `j` for the row `z`: `1 / (1 + max (|z|² + |c_j|² − 2⟨z, c_j⟩) 0 / 1)`. -/
def weight (z : Fin 512 → EReal) (C : (⟨2, ![256, 512]⟩ : Shape).Idx → EReal) (j : Fin 256) : EReal :=
  Ideal.div (Ideal.ofBits .f32 0x3F800000#32)
    (Ideal.ofBits .f32 0x3F800000#32
      + Ideal.div
          (max ((∑ k : Fin 512, z k * z k) + (∑ k : Fin 512, C (ix2 j k) * C (ix2 j k))
              - Ideal.ofBits .f32 0x40000000#32 * ∑ k : Fin 512, z k * C (ix2 j k))
            (Ideal.ofBits .f32 0x00000000#32))
          (Ideal.ofBits .f32 0x3F800000#32))

/-- The soft assignment of the row `z` to centroid `j`: its weight over the sum of the 256 weights. -/
def assign (z : Fin 512 → EReal) (C : (⟨2, ![256, 512]⟩ : Shape).Idx → EReal) (j : Fin 256) : EReal :=
  Ideal.div (weight z C j) (∑ j' : Fin 256, weight z C j')

/-- Row `n` of a 65536 × 512 array. -/
def row (Z : (⟨2, ![65536, 512]⟩ : Shape).Idx → EReal) (n : Fin 65536) : Fin 512 → EReal := fun k => Z (ix2 n k)

/-- The whole result: entry `(n, j)` is the soft assignment of row `n` of `Z` to centroid `j` of `C`. -/
def G (Z : (⟨2, ![65536, 512]⟩ : Shape).Idx → EReal) (C : (⟨2, ![256, 512]⟩ : Shape).Idx → EReal) :
    (⟨2, ![65536, 256]⟩ : Shape).Idx → EReal :=
  fun i => assign (row Z ⟨(i 0).val, (i 0).isLt⟩) C ⟨(i 1).val, (i 1).isLt⟩

theorem G_apply (Z : (⟨2, ![65536, 512]⟩ : Shape).Idx → EReal) (C : (⟨2, ![256, 512]⟩ : Shape).Idx → EReal)
    (n : Fin 65536) (j : Fin 256) : G Z C (ix2 n j) = assign (row Z n) C j := rfl

end Cert.SoftAssign

end
-- ==== Proof.RefValue.lean ====
/-
  The reference computes the soft assignment.

  Read one operation at a time, entry (n, j) of the reference's result is
  (w ^ 1) / (0 + Σ_j' w_j' ^ 1) with w_j = 1 / (1 + max ((0 + Σ_k z_k²) + (0 + Σ_k c_jk²) − 2 · Σ_k z_k c_jk) 0 / 1),
  z row n of the first argument and c_j row j of the second. A sum started from 0 is the sum, and the power 1 is
  the identity on every extended real, so this is `SoftAssign.G` at (n, j).
-/
import proofs.«147699_j85040352460951_1_alg».proof.Proof.Gen.ReferenceIdeal.Read
import proofs.«147699_j85040352460951_1_alg».proof.Proof.SoftAssign

noncomputable section

namespace Cert.ReferenceIdeal.RefValue

open Cert.ReferenceIdeal Cert.ReferenceIdeal.Gen Cert.ReferenceIdeal.Read Cert.SoftAssign
open Idealize.ShloMosaic Idealize.ShloMosaic.TcCoe Idealize.SL.Sem Idealize.ShloMosaic.StableHlo
open Idealize.ShloMosaic.ValueIdx (ix1 ix2)

/-- The row coordinate of an index of the result, as a number below 65536. -/
abbrev rowOf (i : S65536x256.Idx) : Fin 65536 := ⟨(i 0).val, (i 0).isLt⟩
/-- The centroid coordinate of an index of the result, as a number below 256. -/
abbrev colOf (i : S65536x256.Idx) : Fin 256 := ⟨(i 1).val, (i 1).isLt⟩

/-- The reference's unnormalised weight at (n, j), before its power, is the Student-t weight of centroid j for row n. -/
theorem weight_eq (Z : (⟨S65536x512, .f32⟩ : BufTy).Contents (Elt Ideal)) (C : (⟨S256x512, .f32⟩ : BufTy).Contents (Elt Ideal))
    (i : S65536x256.Idx) :
    val_main_v22 (F := Ideal) Z C i = weight (row Z (rowOf i)) C (colOf i) := by
  have e1 : ∀ k, idx_main_v1 (idx_main_v2 (idx_main_v7 i)) k = ix2 (rowOf i) k := fun k =>
    funext fun a => by match a with | ⟨0, _⟩ => rfl | ⟨1, _⟩ => rfl
  have e4 : ∀ k, idx_main_v4 (idx_main_v6 (idx_main_v8 i)) k = ix2 (colOf i) k := fun k =>
    funext fun a => by match a with | ⟨0, _⟩ => rfl | ⟨1, _⟩ => rfl
  have el : ∀ k, lidx_main_v5 i k = ix2 (rowOf i) k := fun k =>
    funext fun a => by match a with | ⟨0, _⟩ => rfl | ⟨1, _⟩ => rfl
  have er : ∀ k, ridx_main_v5 i k = ix2 (colOf i) k := fun k =>
    funext fun a => by match a with | ⟨0, _⟩ => rfl | ⟨1, _⟩ => rfl
  rw [val_main_v22_apply, val_main_v20_apply, val_main_v18_apply, val_main_v16_apply, val_main_v14_apply,
    val_main_v12_apply, val_main_v9_apply, val_main_v11_apply, val_main_v7_apply, val_main_v2_apply, val_main_v1_apply,
    val_main_v8_apply, val_main_v6_apply, val_main_v4_apply, val_main_v5_apply, val_main_v10_apply, val_main_v13_apply,
    val_main_v15_apply, val_main_v17_apply, val_main_v19_apply, val_main_v21_apply]
  simp only [val_main_v0_apply, val_main_v3_apply, val_main_cst_apply, val_main_cst_0_apply, val_main_cst_1_apply,
    val_main_cst_2_apply, val_main_cst_3_apply, val_main_cst_4_apply, val_main_cst_5_apply, val_main_cst_6_apply,
    e1, e4, el, er, Ideal.mulf_def, Ideal.addf_def, Ideal.subf_def, Ideal.maximumf_def, Ideal.hostDivf_def,
    Ideal.hostPowf_def, Ideal.ofBits_def]
  simp only [pow_ofBits_one, weight, row, Ideal.ofBits_zero_f32, zero_add]

/-- THE REFERENCE IS THE SOFT ASSIGNMENT: its last stage, as a function of the two arguments, is `SoftAssign.G`. -/
theorem result_eq (Z : (⟨S65536x512, .f32⟩ : BufTy).Contents (Elt Ideal)) (C : (⟨S256x512, .f32⟩ : BufTy).Contents (Elt Ideal)) :
    val_main_v26 (F := Ideal) Z C = G Z C := by
  funext i
  have e23 : ∀ k, idx_main_v23 (idx_main_v24 (idx_main_v25 i)) k = ix2 (rowOf i) k := fun k =>
    funext fun a => by match a with | ⟨0, _⟩ => rfl | ⟨1, _⟩ => rfl
  rw [val_main_v26_apply, val_main_v25_apply, val_main_v24_apply, val_main_v23_apply]
  simp only [weight_eq, e23, val_main_cst_7_apply, Ideal.hostDivf_def, Ideal.ofBits_def, Ideal.ofBits_zero_f32, zero_add]
  rfl

end Cert.ReferenceIdeal.RefValue

end
-- ==== Proof.BodyLayout.lean ====
/-
  The body's re-laid pieces and its three lane sums, read at an index.

  A row sum kept as a column ([2048] → [2048, 1] → [2048, 256]) reads, at (p, q), the sum at p; a centroid sum laid
  as a row ([256] → [1, 256] → [2048, 256]) reads, at (p, q), the sum at q; a sum over the lanes of a matrix is,
  at row p, the sum over the columns k of the entries (p, k); and the matrix product with the transposed centroid
  table, accumulated from zero, is at (p, q) the inner product of row p of the points with row q of the table.
-/
import proofs.«147699_j85040352460951_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.SL.Sem
open Idealize.ShloMosaic.ValueIdx

/-- A vector of 2048 row values kept as a column and spread over 256 lanes reads, at (p, q), the value of row p. -/
theorem column_apply {α : Type} (v : S2048.Idx → α) (p : Fin 2048) (q : Fin 256) :
    broadcastTo S2048x256 (shapeCast S2048x1 v shapeCasts_S2048_S2048x1) broadcasts_S2048x1_S2048x256 (ix2 p q) = v (ix1 p) := by
  refine (broadcastTo_apply _ broadcasts_S2048x1_S2048x256 (ix2 p q) (ix2 p (0 : Fin 1)) fun a => ?_).trans ?_
  · match a with
    | ⟨0, _⟩ => show p.val = if (2048 : Nat) = 1 then 0 else p.val; rw [if_neg (by decide)]
    | ⟨1, _⟩ => show 0 = if (1 : Nat) = 1 then 0 else q.val; rw [if_pos rfl]
  · refine shapeCast_apply v shapeCasts_S2048_S2048x1 (ix2 p (0 : Fin 1)) (ix1 p) ?_
    rw [Shape.rowMajor_val_one, Shape.rowMajor_val_two]
    show p.val = p.val * 1 + 0
    omega

/-- A vector of 256 centroid values laid as one row and repeated over 2048 rows reads, at (p, q), the value of centroid q. -/
theorem lanes_apply {α : Type} (v : S256.Idx → α) (p : Fin 2048) (q : Fin 256) :
    broadcastTo S2048x256 (shapeCast S1x256 v shapeCasts_S256_S1x256) broadcasts_S1x256_S2048x256 (ix2 p q) = v (ix1 q) :=
  (broadcastTo_1b_ab_apply _ broadcasts_S1x256_S2048x256 p q).trans (shapeCast_a_1a_apply v shapeCasts_S256_S1x256 0 q)

/-- The sum over the 512 lanes of a [2048, 512] block, at row p. -/
theorem sum512_rows (v : FVec Ideal S2048x512 .f32) (p : Fin 2048) :
    multiReduction .add [1] S2048 v 0x00000000#32 reduces_S2048x512_S2048 (.inl rfl) rfl (ix1 p) = ∑ k : Fin 512, v (ix2 p k) := by
  refine (Ideal.multiReduction_add_single v 0x00000000#32 reduces_S2048x512_S2048 (.inl rfl) rfl (ix1 p)).trans ?_
  refine Finset.sum_congr rfl fun k _ => congrArg v (funext fun a => ?_)
  match a with | ⟨0, _⟩ => rfl | ⟨1, _⟩ => rfl

/-- The sum over the 512 lanes of the [256, 512] table, at centroid q. -/
theorem sum512_table (v : FVec Ideal S256x512 .f32) (q : Fin 256) :
    multiReduction .add [1] S256 v 0x00000000#32 reduces_S256x512_S256 (.inl rfl) rfl (ix1 q) = ∑ k : Fin 512, v (ix2 q k) := by
  refine (Ideal.multiReduction_add_single v 0x00000000#32 reduces_S256x512_S256 (.inl rfl) rfl (ix1 q)).trans ?_
  refine Finset.sum_congr rfl fun k _ => congrArg v (funext fun a => ?_)
  match a with | ⟨0, _⟩ => rfl | ⟨1, _⟩ => rfl

/-- The sum over the 256 lanes of a [2048, 256] block, at row p. -/
theorem sum256_rows (v : FVec Ideal S2048x256 .f32) (p : Fin 2048) :
    multiReduction .add [1] S2048 v 0x00000000#32 reduces_S2048x256_S2048 (.inl rfl) rfl (ix1 p) = ∑ k : Fin 256, v (ix2 p k) := by
  refine (Ideal.multiReduction_add_single v 0x00000000#32 reduces_S2048x256_S2048 (.inl rfl) rfl (ix1 p)).trans ?_
  refine Finset.sum_congr rfl fun k _ => congrArg v (funext fun a => ?_)
  match a with | ⟨0, _⟩ => rfl | ⟨1, _⟩ => rfl

/-- The left operand of the product is read, at output (p, q) and contraction position k, on its row p … -/
theorem cross_lhs_row (j : S2048x256.Idx) (k : dot_S2048x512_S512x256_S2048x256_1_0_0_1_n_n.contr.Idx) :
    (dot_S2048x512_S512x256_S2048x256_1_0_0_1_n_n.lhsIdx j k 0).val = (j 0).val := by
  unfold DotDims.lhsIdx
  rw [dif_neg (show ¬(0 : Fin S2048x512.rank) ∈ dot_S2048x512_S512x256_S2048x256_1_0_0_1_n_n.lhsBatch by decide),
    dif_pos (show (0 : Fin S2048x512.rank) ∈ dot_S2048x512_S512x256_S2048x256_1_0_0_1_n_n.lhsNonContracting by decide)]
  rfl
/-- … and the right operand on its column q. -/
theorem cross_rhs_col (j : S2048x256.Idx) (k : dot_S2048x512_S512x256_S2048x256_1_0_0_1_n_n.contr.Idx) :
    (dot_S2048x512_S512x256_S2048x256_1_0_0_1_n_n.rhsIdx j k 1).val = (j 1).val := by
  unfold DotDims.rhsIdx
  rw [dif_neg (show ¬(1 : Fin S512x256.rank) ∈ dot_S2048x512_S512x256_S2048x256_1_0_0_1_n_n.rhsBatch by decide),
    dif_pos (show (1 : Fin S512x256.rank) ∈ dot_S2048x512_S512x256_S2048x256_1_0_0_1_n_n.rhsNonContracting by decide)]
  rfl

/-- The product of a [2048, 512] block with the transposed [256, 512] table, from a zero accumulator: at (p, q) the
    inner product of row p of the block with row q of the table (a change of float format is the identity). -/
theorem cross_apply (x0 : FVec Ideal S2048x512 .f32) (x1 : FVec Ideal S256x512 .f32) (p : Fin 2048) (q : Fin 256) :
    matmul dot_S2048x512_S512x256_S2048x256_1_0_0_1_n_n none (truncf .bf16 x0 bitsLt_bf16_f32)
        (transpose S512x256 [1, 0] (truncf .bf16 x1 bitsLt_bf16_f32) transposes_S256x512_p1_0_S512x256)
        (constant S2048x256 .f32 0x00000000#32) (ix2 p q)
      = ∑ k : Fin 512, x0 (ix2 p k) * x1 (ix2 q k) := by
  simp only [matmul]
  rw [Ideal.matmul_constant_zero_apply,
    ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p q)
      ((contrEquiv1 dot_S2048x512_S512x256_S2048x256_1_0_0_1_n_n 512 rfl rfl).symm k) = ix2 p k :=
    funext fun a => Fin.ext (by
      match a with
      | ⟨0, _⟩ => exact cross_lhs_row _ _
      | ⟨1, _⟩ => exact (dot_S2048x512_S512x256_S2048x256_1_0_0_1_n_n.lhsIdx_val_of_single rfl _ _).trans hk)
  have er : dot_S2048x512_S512x256_S2048x256_1_0_0_1_n_n.rhsIdx (ix2 p q)
      ((contrEquiv1 dot_S2048x512_S512x256_S2048x256_1_0_0_1_n_n 512 rfl rfl).symm k) = ix2 k q :=
    funext fun a => Fin.ext (by
      match a with
      | ⟨0, _⟩ => exact (dot_S2048x512_S512x256_S2048x256_1_0_0_1_n_n.rhsIdx_val_of_single rfl _ _).trans hk
      | ⟨1, _⟩ => exact cross_rhs_col _ _)
  rw [el, er, transpose_ix2_apply]
  rfl

end Cert.KernelIdeal.Body

end
-- ==== Proof.Payload.lean ====
/-
  What the body stores, at an index.

  From a [2048, 512] block x of points and the [256, 512] table c the body forms, lane by lane,
  w(p, q) = 1 / (1 + max (|x_p|² + |c_q|² − 2⟨x_p, c_q⟩) 0 / 1) and stores w(p, q) / Σ_q' w(p, q'): the soft
  assignment of row p of the block to centroid q, in the words of `SoftAssign`.
-/
import proofs.«147699_j85040352460951_1_alg».proof.Proof.BodyLayout
import proofs.«147699_j85040352460951_1_alg».proof.Proof.SoftAssign

noncomputable section

namespace Cert.KernelIdeal.Body

open Cert.KernelIdeal Cert.KernelIdeal.Gen Cert.SoftAssign
open Idealize.ShloMosaic Idealize.SL.Sem
open Idealize.ShloMosaic.ValueIdx

/-- The body's vector of unnormalised weights, as it computes it from the two loaded blocks. -/
def weights (x0 : Vec Ideal S2048x512 .f32) (x1 : Vec Ideal S256x512 .f32) : FVec Ideal S2048x256 .f32 :=
  divf (broadcast S2048x256 (Scalar.ofBits (F := Ideal) .f32 0x3F800000#32))
    (addf (broadcast S2048x256 (Scalar.ofBits (F := Ideal) .f32 0x3F800000#32))
      (divf
        (maximumf
          (subf
            (addf
              (broadcastTo S2048x256 (shapeCast S2048x1 (multiReduction .add [1] S2048 (mulf x0 x0) 0x00000000#32 reduces_S2048x512_S2048 (.inl rfl) rfl) shapeCasts_S2048_S2048x1) broadcasts_S2048x1_S2048x256)
              (broadcastTo S2048x256 (shapeCast S1x256 (multiReduction .add [1] S256 (mulf x1 x1) 0x00000000#32 reduces_S256x512_S256 (.inl rfl) rfl) shapeCasts_S256_S1x256) broadcasts_S1x256_S2048x256))
            (mulf (broadcast S2048x256 (Scalar.ofBits (F := Ideal) .f32 0x40000000#32))
              (matmul dot_S2048x512_S512x256_S2048x256_1_0_0_1_n_n none (truncf .bf16 x0 bitsLt_bf16_f32)
                (transpose S512x256 [1, 0] (truncf .bf16 x1 bitsLt_bf16_f32) transposes_S256x512_p1_0_S512x256)
                (constant S2048x256 .f32 0x00000000#32))))
          (broadcast S2048x256 (Scalar.ofBits (F := Ideal) .f32 0x00000000#32)))
        (broadcast S2048x256 (Scalar.ofBits (F := Ideal) .f32 0x3F800000#32))))

/-- The stored value is the weights over their row sums. -/
theorem pay_eq (x0 : Vec Ideal S2048x512 .f32) (x1 : Vec Ideal S256x512 .f32) :
    k0_pay1 (F := Ideal) x0 x1
      = divf (weights x0 x1)
          (broadcastTo S2048x256 (shapeCast S2048x1 (multiReduction .add [1] S2048 (weights x0 x1) 0x00000000#32 reduces_S2048x256_S2048 (.inl rfl) rfl) shapeCasts_S2048_S2048x1) broadcasts_S2048x1_S2048x256) := rfl

/-- The weight the body computes at (p, q) is the Student-t weight of centroid q for row p of the block. -/
theorem weights_apply (x0 : Vec Ideal S2048x512 .f32) (x1 : Vec Ideal S256x512 .f32) (p : Fin 2048) (q : Fin 256) :
    weights x0 x1 (ix2 p q) = weight (fun k => x0 (ix2 p k)) x1 q := by
  unfold weights
  simp only [divf_apply, addf_apply, subf_apply, mulf_apply, maximumf_apply, broadcast_apply]
  rw [column_apply, lanes_apply, sum512_rows, sum512_table, cross_apply]
  rfl

/-- THE STORED VALUE at (p, q): the soft assignment of row p of the block to centroid q. -/
theorem pay_apply (x0 : Vec Ideal S2048x512 .f32) (x1 : Vec Ideal S256x512 .f32) (p : Fin 2048) (q : Fin 256) :
    k0_pay1 (F := Ideal) x0 x1 (ix2 p q) = assign (fun k => x0 (ix2 p k)) x1 q := by
  rw [pay_eq, divf_apply, column_apply, sum256_rows]
  simp only [weights_apply]
  rfl

end Cert.KernelIdeal.Body

end
-- ==== Proof.Blocks.lean ====
/-
  From blocks to the whole array.

  The grid has 32 points; at point t the body sees rows 2048·t … 2048·t + 2047 of the points, the whole centroid
  table, and writes rows 2048·t … 2048·t + 2047 of the result. Entry (p, q) of what it stores is the soft assignment
  of row p of its block, which is row 2048·t + p of the points: so every stored block is a block of the ONE function
  `SoftAssign.G` of the two argument arrays, the 32 row blocks cover the result, and the result array ends holding `G`.
-/
import proofs.«147699_j85040352460951_1_alg».proof.Proof.Gen.KernelIdeal.Value
import proofs.«147699_j85040352460951_1_alg».proof.Proof.Payload

noncomputable section

namespace Cert.KernelIdeal.Whole

open Cert.KernelIdeal Cert.KernelIdeal.Gen Cert.KernelIdeal.Body Cert.SoftAssign
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the 32 grid points: the points' and the result's row blocks move with the point, the table's
    block and every column block stay at 0. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the points' block at point t is row 2048·t + p of the first argument. -/
theorem points_block (c : Dev nD) (t : Fin cfg0.N) (p : Fin 2048) (k : Fin 512) (n : Fin 65536)
    (hn : n.val = t.val * 2048 + p.val) :
    (iblk m c 0 t : Vec Ideal S2048x512 .f32) (ix2 p k) = (V m c main_arg0 : S65536x512.Idx → Elt Ideal .f32) (ix2 n k) := by
  obtain ⟨e0, e1, -, -, -, -⟩ := index_maps t
  unfold iblk
  rw [View.read_apply]
  show V m c main_arg0 _ = V m c main_arg0 _
  refine congrArg (V m c main_arg0) (funext fun a => Fin.ext ?_)
  match a with
  | ⟨0, _⟩ => show win0_0.index t (0 : Fin 2) * 2048 + 1 * p.val = n.val; rw [e0, hn]; omega
  | ⟨1, _⟩ => show win0_0.index t (1 : Fin 2) * 512 + 1 * k.val = k.val; rw [e1]; omega

/-- The table's block at every point is the second argument. -/
theorem table_block (c : Dev nD) (t : Fin cfg0.N) (q : Fin 256) (k : Fin 512) :
    (iblk m c 1 t : Vec Ideal S256x512 .f32) (ix2 q k) = (V m c main_arg1 : S256x512.Idx → Elt Ideal .f32) (ix2 q k) := by
  obtain ⟨-, -, e2, e3, -, -⟩ := index_maps t
  unfold iblk
  rw [View.read_apply]
  show V m c main_arg1 _ = V m c main_arg1 _
  refine congrArg (V m c main_arg1) (funext fun a => Fin.ext ?_)
  match a with
  | ⟨0, _⟩ => show win0_1.index t (0 : Fin 2) * 256 + 1 * q.val = q.val; rw [e2]; omega
  | ⟨1, _⟩ => show win0_1.index t (1 : Fin 2) * 512 + 1 * k.val = k.val; rw [e3]; omega

/-- What the body stores at point t is, entry by entry, `G` of the two arguments at row 2048·t + p, column q. -/
theorem stored_apply (c : Dev nD) (t : Fin cfg0.N) (p : Fin 2048) (q : Fin 256) (n : Fin 65536)
    (hn : n.val = t.val * 2048 + p.val) :
    k0_pay1 (F := Ideal) (iblk m c 0 t) (iblk m c 1 t) (ix2 p q)
      = G (V m c main_arg0) (V m c main_arg1) (ix2 n q) := by
  rw [pay_apply, G_apply]
  refine congrArg₂ (fun z C => assign z C q) (funext fun k => ?_) (funext fun y => ?_)
  · exact points_block m c t p k n hn
  · obtain ⟨q', k, rfl⟩ : ∃ (q' : Fin 256) (k : Fin 512), y = ix2 q' k := ⟨y 0, y 1, eq_ix2 y⟩
    exact table_block m c t q' k

/-- WHAT POINT t WRITES BACK is block t of `G` of the argument arrays. -/
theorem flushed_eq (c : Dev nD) (t : Fin cfg0.N) :
    (dats m 0 c).flushed 2 t = ((cfg0.win 2).blk t).view.read (Elt Ideal) (G (V m c main_arg0) (V m c main_arg1)) := by
  rw [Value.flushed2]
  unfold out0_2
  rw [View.canon_unit_zero zero_offsets]
  simp only [View.ld_unit_zero (S := S2048x512) zero_offsets, View.ld_unit_zero (S := S256x512) zero_offsets]
  refine funext fun (j : S2048x256.Idx) => ?_
  obtain ⟨-, -, -, -, e4, e5⟩ := index_maps t
  have ht : t.val < 32 := t.isLt.trans_eq (show cfg0.N = 32 from N_0)
  have hj0 : (j 0).val < 2048 := (j 0).isLt
  have hj1 : (j 1).val < 256 := (j 1).isLt
  refine ((congrArg (k0_pay1 (F := Ideal) (iblk m c 0 t) (iblk m c 1 t)) (eq_ix2 j)).trans
    (stored_apply m c t (j 0) (j 1) ⟨t.val * 2048 + (j 0).val, by omega⟩ rfl)).trans ?_
  show G (V m c main_arg0) (V m c main_arg1) _ = G (V m c main_arg0) (V m c main_arg1) (((cfg0.win 2).blk t).view.emb j)
  refine congrArg (G (V m c main_arg0) (V m c main_arg1)) (funext fun a => Fin.ext ?_)
  match a with
  | ⟨0, _⟩ => show t.val * 2048 + (j 0).val = win0_2.index t (0 : Fin 2) * 2048 + 1 * (j 0).val; rw [e4]; omega
  | ⟨1, _⟩ => show (j 1).val = win0_2.index t (1 : Fin 2) * 256 + 1 * (j 1).val; rw [e5]; omega

/-- An index of the result is in point t's block iff each coordinate is in the block's range on its axis. -/
theorem mem_block (t : Fin cfg0.N) (i : S65536x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_v0).slice (win0_2.rect t)).set ↔ _
  rw [View.set_slice_whole, Rect.mem_set_unit]
  exact Iff.rfl

/-- Row r of the result lies in the block of point r / 2048: the 32 row blocks cover the result. -/
theorem covered (i : S65536x256.Idx) :
    ∃ t : Fin cfg0.N, (cfg0.win 2).flush t = true ∧ i ∈ ((cfg0.win 2).blk t).view.set := by
  have hi0 : (i 0).val < 65536 := (i 0).isLt
  have hi1 : (i 1).val < 256 := (i 1).isLt
  have hN : cfg0.N = 32 := N_0
  let t : Fin cfg0.N := ⟨(i 0).val / 2048, by rw [hN]; omega⟩
  obtain ⟨-, -, -, -, e4, e5⟩ := index_maps t
  have e4' : win0_2.index t (0 : Fin 2) = (i 0).val / 2048 := e4
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    rw [e4']; omega
  | ⟨1, _⟩ =>
    show win0_2.index t (1 : Fin 2) * 256 ≤ (i 1).val ∧ (i 1).val < win0_2.index t (1 : Fin 2) * 256 + 256
    rw [e5]; omega

/-- THE RESULT ARRAY after the run is `G` of the two argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) covered

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  Soft assignment to 256 centroids: a tiled kernel against its plain reference, over the extended reals.

  Both programs send a point z (a row of the first argument, 512 entries) and the centroid table (the second argument,
  256 rows) to w_j / Σ_j' w_j' with w_j = 1 / (1 + max (|z|² + |c_j|² − 2⟨z, c_j⟩) 0 / 1).
  The kernel does it 2048 rows at a time over a grid of 32 points, the inner products by one matrix product with the
  transposed table from a zero accumulator after a change of float format (the identity on the extended reals); the
  reference does it on the whole arrays, starts each of its sums from 0 and raises w to the power 1 before normalising.
  A sum started from 0 is the sum, and x ^ 1 = x on every extended real (⊥ and ⊤ included), so the two results are one
  function `SoftAssign.G` of the arguments, entry by entry; no finiteness of the inputs is used.

  SoftAssign: the function and the two facts about the constants. RefValue: the reference is that function.
  BodyLayout, Payload: what the kernel's body stores, at an index. Blocks: the 32 stored blocks are blocks of that
  function and cover the result. Here: the three frames, the (empty) idealization ledger and the equality.
-/
import proofs.«147699_j85040352460951_1_alg».proof.Defs
import proofs.«147699_j85040352460951_1_alg».proof.Proof.Gen.Kernel
import proofs.«147699_j85040352460951_1_alg».proof.Proof.Gen.Kernel.Skeleton
import proofs.«147699_j85040352460951_1_alg».proof.Proof.Gen.Kernel.Launch
import proofs.«147699_j85040352460951_1_alg».proof.Proof.Gen.Kernel.Points
import proofs.«147699_j85040352460951_1_alg».proof.Proof.Gen.Kernel.Frame
import proofs.«147699_j85040352460951_1_alg».proof.Proof.Gen.KernelIdeal
import proofs.«147699_j85040352460951_1_alg».proof.Proof.Gen.KernelIdeal.Skeleton
import proofs.«147699_j85040352460951_1_alg».proof.Proof.Gen.KernelIdeal.Launch
import proofs.«147699_j85040352460951_1_alg».proof.Proof.Gen.KernelIdeal.Points
import proofs.«147699_j85040352460951_1_alg».proof.Proof.Gen.KernelIdeal.Frame
import proofs.«147699_j85040352460951_1_alg».proof.Proof.Gen.ReferenceIdeal
import proofs.«147699_j85040352460951_1_alg».proof.Proof.Gen.Pre_finite_inputs
import proofs.«147699_j85040352460951_1_alg».proof.Proof.Gen.KernelIdeal.Value
import proofs.«147699_j85040352460951_1_alg».proof.Proof.Gen.ReferenceIdeal.Run
import proofs.«147699_j85040352460951_1_alg».proof.Proof.Gen.ReferenceIdeal.Read
import proofs.«147699_j85040352460951_1_alg».proof.Proof.RefValue
import proofs.«147699_j85040352460951_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the two arguments the kernel's result array ends at `SoftAssign.G` of them (the 32
    stored row blocks, `Whole.run`) and the reference's at its last stage, which is the same function
    (`RefValue.result_eq`). -/
theorem algebraic : Cert.algebraic_KernelIdeal_ReferenceIdeal := by
  intro m ρ m' ρ' _ hagree
  refine ⟨fun c => Cert.SoftAssign.G (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
